-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) (main_arg3 : IVec S4096x4096 1) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .i1⟩
  | .hbm, ⟨4, _⟩ => ⟨S1x4096, .f32⟩
  | .hbm, ⟨5, _⟩ => ⟨S4096x4096, .i32⟩
  | .hbm, ⟨6, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .i32⟩
  | .local _ .vmem, ⟨5, _⟩ => ⟨S1024x1024, .i32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  natLt_1_32 : 1 < 32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .i32 = 32 ∨ (Rect.block (s := S4096x4096) S1024x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .i1⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
# A linear layer with a masked weight, as one function of its arguments

For `x : [8192, 4096]`, `w : [4096, 4096]`, a bias `b : [4096]` and a mask `mk : [4096, 4096]` of bits, the
result at row `r` and column `n` is

  `G r n = (∑ k < 4096, x[r, k] · (mk[n, k] ? w[n, k] : 0)) + b[n]`

on the extended reals: the product of `x` with the transpose of the masked weight, plus the bias along rows.
Both programs compute this. The reference does it in one contraction over all 4096 columns `k`; the kernel
splits the columns into four consecutive blocks of 1024 and adds the four partial sums in order onto a zero.
The one law that joins them is that a sum over `k < 4096` is the sum over the block number `s < 4` of the
sums over the position `kk < 1024` inside the block, `k = 1024·s + kk` (`sum_blocks`): a re-indexing of a
finite sum in a commutative monoid, which holds on the extended reals with no finiteness assumed. The zero
the kernel starts from is the additive unit (`G_blocks`).
-/

noncomputable section

open scoped BigOperators

namespace Cert.MaskedLinear

open Idealize.ShloMosaic Idealize.ShloMosaic.ValueIdx

/-- The three argument shapes (the mask has the weight's). -/
abbrev SX : Shape := ⟨2, ![8192, 4096]⟩
abbrev SW : Shape := ⟨2, ![4096, 4096]⟩
abbrev SB : Shape := ⟨1, ![4096]⟩

/-- What a masked-off weight entry reads as: the f32 word of `+0.0`, as an extended real. -/
abbrev zero : EReal := Ideal.ofBits .f32 0x00000000#32

/-- The masked weight at `(n, k)`: the weight where the mask bit is set, zero where it is not. -/
def maskedW (w : SW.Idx → EReal) (mk : SW.Idx → BitVec 1) (n k : Fin 4096) : EReal :=
  Scalar.select (mk (ix2 n k)) (w (ix2 n k)) zero

/-- One term of the contraction: `x[r, k] · maskedW[n, k]`. -/
def term (x : SX.Idx → EReal) (w : SW.Idx → EReal) (mk : SW.Idx → BitVec 1) (r : Fin 8192) (n k : Fin 4096) : EReal :=
  x (ix2 r k) * maskedW w mk n k

/-- THE RESULT: at `(r, n)` the contraction over all columns, plus the bias at `n`. -/
def G (x : SX.Idx → EReal) (w : SW.Idx → EReal) (b : SB.Idx → EReal) (mk : SW.Idx → BitVec 1) : SX.Idx → EReal :=
  fun i => (∑ k : Fin 4096, term x w mk (i 0) (i 1) k) + b (ix1 (i 1))

/-- Column `1024·s + kk`: position `kk` of column block `s`. -/
abbrev col (s : Fin 4) (kk : Fin 1024) : Fin 4096 :=
  ⟨1024 * s.val + kk.val, by have := s.isLt; have := kk.isLt; omega⟩

/-- The columns are the pairs (block, position in the block). -/
def colEquiv : Fin 4 × Fin 1024 ≃ Fin 4096 where
  toFun p := col p.1 p.2
  invFun k := (⟨k.val / 1024, by have := k.isLt; omega⟩, ⟨k.val % 1024, Nat.mod_lt _ (by decide)⟩)
  left_inv p := by
    have h2 := p.2.isLt
    refine Prod.ext (Fin.ext ?_) (Fin.ext ?_)
    · show (1024 * p.1.val + p.2.val) / 1024 = p.1.val
      omega
    · show (1024 * p.1.val + p.2.val) % 1024 = p.2.val
      omega
  right_inv k := by
    refine Fin.ext ?_
    show 1024 * (k.val / 1024) + k.val % 1024 = k.val
    omega

/-- A sum over the 4096 columns is the sum over the four column blocks of the sums inside each. -/
theorem sum_blocks {M : Type*} [AddCommMonoid M] (f : Fin 4096 → M) :
    ∑ k, f k = ∑ s : Fin 4, ∑ kk : Fin 1024, f (col s kk) := by
  rw [← Equiv.sum_comp colEquiv f, Fintype.sum_prod_type]
  rfl

/-- The part of the contraction that column block `s` contributes. -/
def blockTerm (x : SX.Idx → EReal) (w : SW.Idx → EReal) (mk : SW.Idx → BitVec 1) (r : Fin 8192) (n : Fin 4096) (s : Fin 4) : EReal :=
  ∑ kk : Fin 1024, term x w mk r n (col s kk)

/-- `G` as the kernel accumulates it: the four blocks' parts added onto the zero, then the bias. -/
theorem G_blocks (x : SX.Idx → EReal) (w : SW.Idx → EReal) (b : SB.Idx → EReal) (mk : SW.Idx → BitVec 1) (i : SX.Idx) :
    G x w b mk i = (zero + ∑ s : Fin 4, blockTerm x w mk (i 0) (i 1) s) + b (ix1 (i 1)) := by
  unfold G blockTerm zero
  rw [Ideal.ofBits_zero_f32, zero_add, sum_blocks]

end Cert.MaskedLinear

end
-- ==== Proof.Pieces.lean ====
import proofs.«157692_j68994354643218_1_alg».proof.Proof.Gen.KernelIdeal.Frame
import Idealize.ShloMosaic.Lib.Pipeline.Value
import Idealize.ShloMosaic.Lib.Tactic

/-!
# What one grid point leaves behind

The body at a grid point `(i, j, k)` does three things, the first and the last under a condition on `k`:
at `k = 0` it stores the zero block into the accumulator; at every `k` it adds the product of the point's
`x` block with the masked `w` block into the accumulator; at `k = 3` it stores the accumulator plus the
broadcast bias row into the output block. So there are three kinds of point — first (`k = 0`), middle
(`k = 1, 2`), last (`k = 3`) — and at each of them the accumulator ends at

  `acc' = acc + x_blk · (mask_blk ? w_blk : 0)ᵀ`,

with `acc` the zero block at a first point and what the point before left otherwise, and at a last point
the output block ends at `acc' + bias_blk`. The four lemmas below say exactly that, in terms of the three
pure terms the body's stores write (`k0_pay1` the zero block, `k0_pay2` the accumulation, `k0_pay3` the
epilogue), for any float instance.
-/

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every store and load of the body is of a whole buffer: offsets zero on both axes. -/
theorem hz : (![0, 0] : Fin 2 → Nat) = fun _ => 0 := funext fun a => by fin_cases a <;> rfl

/-- A middle point (`0 < k < 3`) leaves in the accumulator what it held, `acc`, plus the point's product. -/
theorem scratch_B (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .i32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : ¬cond0_1 i)
    (x0 : Vec F S1024x1024 .f32) (x1 : Vec F S1024x1024 .f32) (x2 : Vec F S1024x1024 .i32) (x3 : Vec F S1x1024 .f32) (acc : Vec F S1024x1024 .f32) :
    sout0_B_0 c i a3 h3 a4 h4 a5 h5 a6 h6 a7 h7 a8 h8 hc0 hc1 x0 x1 x2 x3 acc = k0_pay2 x2 x1 x0 acc := by
  unfold sout0_B_0
  rw [View.read_writes_eq_canon _ _ _ (scover0_B_0 c i a3 h3 a4 h4 a5 h5 a6 h6 a7 h7 a8 h8 hc0 hc1 x0 x1 x2 x3 acc)]
  unfold kernelRun0_B
  dsimp only
  rw [View.canon_unit_zero hz]
  simp only [View.readAt_eq_ld, h3.read_unread, h4.read_unread, h5.read_unread, h8.read_unread,
    View.ld_unit_zero (S := S1024x1024) hz]

/-- A last point (`k = 3`) leaves the same in the accumulator … -/
theorem scratch_C (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .i32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i)
    (x0 : Vec F S1024x1024 .f32) (x1 : Vec F S1024x1024 .f32) (x2 : Vec F S1024x1024 .i32) (x3 : Vec F S1x1024 .f32) (acc : Vec F S1024x1024 .f32) :
    sout0_C_0 c i a3 h3 a4 h4 a5 h5 a6 h6 a7 h7 a8 h8 hc0 hc1 x0 x1 x2 x3 acc = k0_pay2 x2 x1 x0 acc := by
  unfold sout0_C_0
  rw [View.read_writes_eq_canon _ _ _ (scover0_C_0 c i a3 h3 a4 h4 a5 h5 a6 h6 a7 h7 a8 h8 hc0 hc1 x0 x1 x2 x3 acc)]
  unfold kernelRun0_C
  dsimp only
  sl_unfold_words
  rw [View.canon_unit_zero hz]
  simp only [View.readAt_eq_ld, h3.read_unread, h4.read_unread, h5.read_unread, h8.read_unread,
    View.ld_unit_zero (S := S1024x1024) hz]

/-- … and in the output block that accumulator plus the bias row, broadcast down the rows. -/
theorem out_C (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .i32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i)
    (x0 : Vec F S1024x1024 .f32) (x1 : Vec F S1024x1024 .f32) (x2 : Vec F S1024x1024 .i32) (x3 : Vec F S1x1024 .f32) (acc : Vec F S1024x1024 .f32) :
    out0_C_4 c i a3 h3 a4 h4 a5 h5 a6 h6 a7 h7 a8 h8 hc0 hc1 x0 x1 x2 x3 acc = k0_pay3 (k0_pay2 x2 x1 x0 acc) x3 := by
  unfold out0_C_4
  rw [View.read_writes_eq_canon _ _ _ (cover0_C_4 c i a3 h3 a4 h4 a5 h5 a6 h6 a7 h7 a8 h8 hc0 hc1 x0 x1 x2 x3 acc)]
  unfold kernelRun0_C
  dsimp only
  sl_unfold_words
  rw [View.canon_unit_zero hz, View.readCov_unit_zero (S := S1024x1024) _ hz]
  simp only [View.readAt_eq_ld, h3.read_unread, h4.read_unread, h5.read_unread, h6.read_unread, h8.read_unread,
    View.ld_unit_zero (S := S1024x1024) hz, View.ld_unit_zero (S := S1x1024) hz]

/-- A first point (`k = 0`) stores the zero block, reads it back, and leaves it plus the point's product. -/
theorem scratch_A (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .i32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : cond0_0 i) (hc1 : ¬cond0_1 i)
    (x0 : Vec F S1024x1024 .f32) (x1 : Vec F S1024x1024 .f32) (x2 : Vec F S1024x1024 .i32) (x3 : Vec F S1x1024 .f32) :
    sout0_A_0 c i a3 h3 a4 h4 a5 h5 a6 h6 a7 h7 a8 h8 hc0 hc1 x0 x1 x2 x3 = k0_pay2 x2 x1 x0 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread,
    View.ld_unit_zero (S := S1024x1024) hz]

end Cert.KernelIdeal.Pieces

end
-- ==== Proof.Product.lean ====
import proofs.«157692_j68994354643218_1_alg».proof.Proof.Gen.KernelIdeal.Skeleton
import Idealize.ShloMosaic.Lib.Pipeline.Value
import Idealize.ShloMosaic.Lib.ValueIdx
import Idealize.ShloMosaic.PureOps.Ideal.Laws

/-!
# One grid point's arithmetic, read at an index

The accumulation a point performs is `acc + P`, where `P` is the matrix product of the point's `x` block
`[1024 rows, 1024 columns]` with the point's masked `w` block `[1024 output columns, 1024 columns]`,
contracted over the columns of both (`x · wᵀ`). The block's mask arrives as 32-bit words, zero or one, and the
body tests each against zero. On the extended reals the narrowing of both operands to bf16 is the identity and
the matrix unit's product into a zero accumulator is the plain sum, so at row `p` and output column `q`

  `P[p, q] = ∑ kk < 1024, x_blk[p, kk] · (mask_blk[q, kk] ≠ 0 ? w_blk[q, kk] : 0)`.

The epilogue adds the bias block, one row of 1024, to every row: `(acc + bias)[p, q] = acc[p, q] + bias[0, q]`.
-/

noncomputable section

open scoped BigOperators

namespace Cert.KernelIdeal.Product

open Cert.KernelIdeal Cert.KernelIdeal.Gen Idealize.ShloMosaic Idealize.ShloMosaic.ValueIdx

variable {F : FTy → Type} [FloatOps F]

/-- The product `P` a point adds to the accumulator: `x_blk · (mask_blk ≠ 0 ? w_blk : 0)ᵀ` into a zero accumulator,
    both operands narrowed to bf16 first. -/
def prod (v3 : Vec F S1024x1024 .i32) (v5 : Vec F S1024x1024 .f32) (v8 : Vec F S1024x1024 .f32) : FVec F S1024x1024 .f32 :=
  matmul dot_S1024x1024_S1024x1024_S1024x1024_1_1_0_0_n_n none
    (truncf .bf16 v8 bitsLt_bf16_f32)
    (truncf .bf16 (select (cmpi .ne v3 (constantI S1024x1024 32 0#32)) v5 (broadcast S1024x1024 (Scalar.ofBits .f32 0x00000000#32))) bitsLt_bf16_f32)
    (constant S1024x1024 .f32 0x00000000#32)

/-- The accumulation's stored value is the accumulator plus that product (the shape casts are of a shape to itself). -/
theorem pay2_eq (v3 : Vec F S1024x1024 .i32) (v5 v8 v11 : Vec F S1024x1024 .f32) :
    k0_pay2 v3 v5 v8 v11 = addf v11 (prod v3 v5 v8) := by
  unfold k0_pay2 prod
  simp only [shapeCast_self]

/-- The reset's stored value is the zero block. -/
theorem pay1_eq : k0_pay1 (F := F) = broadcast S1024x1024 (Scalar.ofBits .f32 0x00000000#32) := by
  unfold k0_pay1
  simp only [shapeCast_self]

/-- The epilogue's stored value is the accumulator plus the bias row broadcast down the rows. -/
theorem pay3_eq (v20 : Vec F S1024x1024 .f32) (v21 : Vec F S1x1024 .f32) :
    k0_pay3 v20 v21 = addf v20 (broadcastTo S1024x1024 v21 broadcasts_S1x1024_S1024x1024) := by
  unfold k0_pay3
  simp only [shapeCast_self]

/-! ## The contraction's operand indices: `x_blk` at (row, column), `w_blk` at (output column, column) -/

theorem lhs0 (i : S1024x1024.Idx) (k : (dot_S1024x1024_S1024x1024_S1024x1024_1_1_0_0_n_n).contr.Idx) :
    ((dot_S1024x1024_S1024x1024_S1024x1024_1_1_0_0_n_n).lhsIdx i k 0).val = (i 0).val := by
  unfold DotDims.lhsIdx
  rw [dif_neg (show ¬(0 : Fin S1024x1024.rank) ∈ (dot_S1024x1024_S1024x1024_S1024x1024_1_1_0_0_n_n).lhsBatch by decide),
    dif_pos (show (0 : Fin S1024x1024.rank) ∈ (dot_S1024x1024_S1024x1024_S1024x1024_1_1_0_0_n_n).lhsNonContracting by decide)]
  rfl

theorem lhs1 (i : S1024x1024.Idx) (k : (dot_S1024x1024_S1024x1024_S1024x1024_1_1_0_0_n_n).contr.Idx) :
    ((dot_S1024x1024_S1024x1024_S1024x1024_1_1_0_0_n_n).lhsIdx i k 1).val = (k ⟨0, by decide⟩).val :=
  (dot_S1024x1024_S1024x1024_S1024x1024_1_1_0_0_n_n).lhsIdx_val_of_single rfl i k

theorem rhs0 (i : S1024x1024.Idx) (k : (dot_S1024x1024_S1024x1024_S1024x1024_1_1_0_0_n_n).contr.Idx) :
    ((dot_S1024x1024_S1024x1024_S1024x1024_1_1_0_0_n_n).rhsIdx i k 0).val = (i 1).val := by
  unfold DotDims.rhsIdx
  rw [dif_neg (show ¬(0 : Fin S1024x1024.rank) ∈ (dot_S1024x1024_S1024x1024_S1024x1024_1_1_0_0_n_n).rhsBatch by decide),
    dif_pos (show (0 : Fin S1024x1024.rank) ∈ (dot_S1024x1024_S1024x1024_S1024x1024_1_1_0_0_n_n).rhsNonContracting by decide)]
  rfl

theorem rhs1 (i : S1024x1024.Idx) (k : (dot_S1024x1024_S1024x1024_S1024x1024_1_1_0_0_n_n).contr.Idx) :
    ((dot_S1024x1024_S1024x1024_S1024x1024_1_1_0_0_n_n).rhsIdx i k 1).val = (k ⟨0, by decide⟩).val :=
  (dot_S1024x1024_S1024x1024_S1024x1024_1_1_0_0_n_n).rhsIdx_val_of_single rfl i k

/-- THE PRODUCT AT AN INDEX, on the extended reals: the sum over the block's 1024 columns. -/
theorem prod_apply (v3 : Vec Ideal S1024x1024 .i32) (v5 : Vec Ideal S1024x1024 .f32) (v8 : Vec Ideal S1024x1024 .f32) (p q : Fin 1024) :
    prod v3 v5 v8 (ix2 p q)
      = ∑ kk : Fin 1024, v8 (ix2 p kk) * Scalar.select (IntOp.cmpi .ne (v3 (ix2 q kk)) 0#32) (v5 (ix2 q kk)) (Ideal.ofBits .f32 0x00000000#32) := by
  unfold prod
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : (dot_S1024x1024_S1024x1024_S1024x1024_1_1_0_0_n_n).lhsIdx (ix2 p q) ((contrEquiv1 dot_S1024x1024_S1024x1024_S1024x1024_1_1_0_0_n_n 1024 rfl rfl).symm k) = ix2 p k :=
    funext fun a => Fin.ext (by
      match a with
      | ⟨0, _⟩ => exact lhs0 _ _
      | ⟨1, _⟩ => exact (lhs1 _ _).trans hk)
  have er : (dot_S1024x1024_S1024x1024_S1024x1024_1_1_0_0_n_n).rhsIdx (ix2 p q) ((contrEquiv1 dot_S1024x1024_S1024x1024_S1024x1024_1_1_0_0_n_n 1024 rfl rfl).symm k) = ix2 q k :=
    funext fun a => Fin.ext (by
      match a with
      | ⟨0, _⟩ => exact rhs0 _ _
      | ⟨1, _⟩ => exact (rhs1 _ _).trans hk)
  rw [el, er]
  rfl

/-- The accumulation at an index, on the extended reals. -/
theorem pay2_apply (v3 : Vec Ideal S1024x1024 .i32) (v5 v8 v11 : Vec Ideal S1024x1024 .f32) (y : S1024x1024.Idx) :
    k0_pay2 v3 v5 v8 v11 y = v11 y + prod v3 v5 v8 y := by
  rw [pay2_eq]; rfl

/-- The zero block at an index. -/
theorem pay1_apply (y : S1024x1024.Idx) : k0_pay1 (F := Ideal) y = Ideal.ofBits .f32 0x00000000#32 := by
  rw [pay1_eq]; rfl

/-- The epilogue at an index, on the extended reals: the bias row's entry of the same column is added. -/
theorem pay3_apply (v20 : Vec Ideal S1024x1024 .f32) (v21 : Vec Ideal S1x1024 .f32) (p q : Fin 1024) :
    k0_pay3 v20 v21 (ix2 p q) = v20 (ix2 p q) + v21 (ix2 (0 : Fin 1) q) := by
  rw [pay3_eq]
  show v20 (ix2 p q) + broadcastTo S1024x1024 v21 broadcasts_S1x1024_S1024x1024 (ix2 p q) = _
  rw [broadcastTo_apply v21 broadcasts_S1x1024_S1024x1024 (ix2 p q) (ix2 (0 : Fin 1) q) (fun a => by
    match a with
    | ⟨0, _⟩ => show (0 : Nat) = if (1 : Nat) = 1 then 0 else p.val; rw [if_pos rfl]
    | ⟨1, _⟩ => show q.val = if (1024 : Nat) = 1 then 0 else q.val; rw [if_neg (by decide)])]

/-- A mask bit widened to 32 bits and tested against zero is the bit. -/
theorem bit_test (b : BitVec 1) : IntOp.cmpi .ne (b.setWidth 32) 0#32 = b := by
  revert b; decide

end Cert.KernelIdeal.Product

end
-- ==== Proof.Blocks.lean ====
import proofs.«157692_j68994354643218_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

/-!
# Which entries of the arguments a grid point sees

The grid is `8 × 4 × 4`, walked row-major, so point number `t < 128` is `(i, j, k) = (t / 16, t / 4 % 4, t % 4)`:
`i` the block of 1024 rows of `x`, `j` the block of 1024 output columns, `k` the block of 1024 contracted
columns. At that point the windows hold

* `x[1024 i + p, 1024 k + kk]` at `(p, kk)` (window 0),
* `w[1024 j + q, 1024 k + kk]` at `(q, kk)` (window 1),
* the mask bit at the same place as `w`, widened to 32 bits (window 2: the host converts the mask to 32-bit
  words before the call),
* `b[1024 j + q]` at `(0, q)` (window 3: the host reshapes the bias to one row of 4096 before the call),

and the output window (4) is block `(i, j)` of the result. The index maps are decided once over the 128 points
(`idx_facts`); an element of a block sits in its array, on each axis, at block index × 1024 + its coordinate.
-/

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The five windows' block indices at point `t`, in closed form: decided over the grid's 128 points. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 4 % 4 ∧ win0_2.index t (1 : Fin 2) = t.val % 4
    ∧ win0_3.index t (0 : Fin 2) = 0 ∧ win0_3.index t (1 : Fin 2) = t.val / 4 % 4
    ∧ win0_4.index t (0 : Fin 2) = t.val / 16 ∧ win0_4.index t (1 : Fin 2) = t.val / 4 % 4 :=
  (by decide +kernel : ∀ t : Fin grid0.N, _)

/-- The region finds, where the mask's words are staged from, the mask's bits widened to 32 bits. -/
theorem V_mask (c : Dev nD) :
    (V m c main_v1 : S4096x4096.Idx → BitVec 32) = extui 32 (m ((c : Thread nD τ).loc main_arg3)) natLt_1_32 := by
  dsimp only [Gen.V, Gen.hostOps0]
  after_results <;> rfl

/-- The region finds, where the bias row is staged from, the bias reshaped to one row of 4096. -/
theorem V_bias (c : Dev nD) :
    (V m c main_v0 : S1x4096.Idx → F .f32) = shapeCast S1x4096 (m ((c : Thread nD τ).loc main_arg2)) shapeCasts_S4096_S1x4096 := by
  dsimp only [Gen.V, Gen.hostOps0]
  after_results <;> rfl

/-- The one-row reshape of a vector of 4096 reads entry `n` at `(0, n)`: the same row-major position. -/
theorem row_of_vector {α : Type} (b : S4096.Idx → α) (n : Fin 4096) :
    shapeCast S1x4096 b shapeCasts_S4096_S1x4096 (ix2 (0 : Fin 1) n) = b (ix1 n) :=
  shapeCast_apply b shapeCasts_S4096_S1x4096 (ix2 (0 : Fin 1) n) (ix1 n) (by
    rw [Shape.rowMajor_val_one, Shape.rowMajor_val_two]
    show n.val = 0 * 4096 + n.val
    omega)

/-- Window 0 at `(p, kk)`: `x` at row `1024·(t / 16) + p`, column `1024·(t % 4) + kk`. -/
theorem iblk0_apply (c : Dev nD) (t : Fin cfg0.N) (p kk : Fin 1024) (r : Fin 8192) (k : Fin 4096)
    (hr : r.val = 1024 * (t.val / 16) + p.val) (hk : k.val = 1024 * (t.val % 4) + kk.val) :
    (iblk m c 0 t : Vec F S1024x1024 .f32) (ix2 p kk) = m ((c : Thread nD τ).loc main_arg0) (ix2 r k) := by
  obtain ⟨e0, e1, -⟩ := idx_facts t
  have e : ((cfg0.win 0).blk t).view.emb (ix2 p kk) = ix2 r k := funext fun a => Fin.ext (by
    match a with
    | ⟨0, _⟩ => show win0_0.index t (0 : Fin 2) * 1024 + 1 * p.val = r.val; rw [e0, hr]; omega
    | ⟨1, _⟩ => show win0_0.index t (1 : Fin 2) * 1024 + 1 * kk.val = k.val; rw [e1, hk]; omega)
  unfold iblk
  rw [View.read_apply]
  show V m c main_arg0 (((cfg0.win 0).blk t).view.emb (ix2 p kk)) = _
  rw [e, V_main_arg0]

/-- Window 1 at `(q, kk)`: `w` at row `1024·(t / 4 % 4) + q`, column `1024·(t % 4) + kk`. -/
theorem iblk1_apply (c : Dev nD) (t : Fin cfg0.N) (q kk : Fin 1024) (n k : Fin 4096)
    (hn : n.val = 1024 * (t.val / 4 % 4) + q.val) (hk : k.val = 1024 * (t.val % 4) + kk.val) :
    (iblk m c 1 t : Vec F S1024x1024 .f32) (ix2 q kk) = m ((c : Thread nD τ).loc main_arg1) (ix2 n k) := by
  obtain ⟨-, -, e0, e1, -⟩ := idx_facts t
  have e : ((cfg0.win 1).blk t).view.emb (ix2 q kk) = ix2 n k := funext fun a => Fin.ext (by
    match a with
    | ⟨0, _⟩ => show win0_1.index t (0 : Fin 2) * 1024 + 1 * q.val = n.val; rw [e0, hn]; omega
    | ⟨1, _⟩ => show win0_1.index t (1 : Fin 2) * 1024 + 1 * kk.val = k.val; rw [e1, hk]; omega)
  unfold iblk
  rw [View.read_apply]
  show V m c main_arg1 (((cfg0.win 1).blk t).view.emb (ix2 q kk)) = _
  rw [e, V_main_arg1]

/-- Window 2 at `(q, kk)`: the mask bit at the same place as `w`, widened to 32 bits. -/
theorem iblk2_apply (c : Dev nD) (t : Fin cfg0.N) (q kk : Fin 1024) (n k : Fin 4096)
    (hn : n.val = 1024 * (t.val / 4 % 4) + q.val) (hk : k.val = 1024 * (t.val % 4) + kk.val) :
    (iblk m c 2 t : Vec F S1024x1024 .i32) (ix2 q kk) = (m ((c : Thread nD τ).loc main_arg3) (ix2 n k)).setWidth 32 := by
  obtain ⟨-, -, -, -, e0, e1, -⟩ := idx_facts t
  have e : ((cfg0.win 2).blk t).view.emb (ix2 q kk) = ix2 n k := funext fun a => Fin.ext (by
    match a with
    | ⟨0, _⟩ => show win0_2.index t (0 : Fin 2) * 1024 + 1 * q.val = n.val; rw [e0, hn]; omega
    | ⟨1, _⟩ => show win0_2.index t (1 : Fin 2) * 1024 + 1 * kk.val = k.val; rw [e1, hk]; omega)
  unfold iblk
  rw [View.read_apply]
  show V m c main_v1 (((cfg0.win 2).blk t).view.emb (ix2 q kk)) = _
  rw [e, V_mask]
  rfl

/-- Window 3 at `(0, q)`: the bias at `1024·(t / 4 % 4) + q`. -/
theorem iblk3_apply (c : Dev nD) (t : Fin cfg0.N) (q : Fin 1024) (n : Fin 4096)
    (hn : n.val = 1024 * (t.val / 4 % 4) + q.val) :
    (iblk m c 3 t : Vec F S1x1024 .f32) (ix2 (0 : Fin 1) q) = m ((c : Thread nD τ).loc main_arg2) (ix1 n) := by
  obtain ⟨-, -, -, -, -, -, e0, e1, -⟩ := idx_facts t
  have e : ((cfg0.win 3).blk t).view.emb (ix2 (0 : Fin 1) q) = ix2 (0 : Fin 1) n := funext fun a => Fin.ext (by
    match a with
    | ⟨0, _⟩ => show win0_3.index t (0 : Fin 2) * 1 + 1 * 0 = 0; rw [e0]
    | ⟨1, _⟩ => show win0_3.index t (1 : Fin 2) * 1024 + 1 * q.val = n.val; rw [e1, hn]; omega)
  unfold iblk
  rw [View.read_apply]
  show V m c main_v0 (((cfg0.win 3).blk t).view.emb (ix2 (0 : Fin 1) q)) = _
  rw [e, V_bias, row_of_vector]

end Cert.KernelIdeal.Blocks

end
-- ==== Proof.Accumulate.lean ====
import proofs.«157692_j68994354643218_1_alg».proof.Proof.Gen.KernelIdeal.Value
import proofs.«157692_j68994354643218_1_alg».proof.Proof.Spec
import proofs.«157692_j68994354643218_1_alg».proof.Proof.Pieces
import proofs.«157692_j68994354643218_1_alg».proof.Proof.Product
import proofs.«157692_j68994354643218_1_alg».proof.Proof.Blocks

/-!
# The accumulator over a run of four points, and the block a last point writes

The four points `(i, j, 0), …, (i, j, 3)` are consecutive: numbers `4u, …, 4u + 3` with `u = t / 4`. The first
resets the accumulator to zero and adds its product; the next three add theirs. So after point `t` the
accumulator holds, at every index,

  `0 + ∑ s ≤ t % 4, P(4·(t / 4) + s)`

with `P(n)` point `n`'s product (`scratch_after`): the fold over the run, unrolled once by the library's lemma on
folds whose every step adds. At a last point (`t % 4 = 3`) the output block is that, with all four products, plus
the bias row (`out_last`).

Point `4·(t / 4) + s` has the same row block `i` and output-column block `j` as `t` and column block `s`; its
product at `(p, q)` is therefore the part of the whole contraction at row `1024 i + p`, output column `1024 j + q`
that column block `s` contributes (`addend_eq`): the window reads give the entries, and the test of the widened
mask word against zero gives back the mask bit. Adding up, a last point's output block at `(p, q)` is the
specification at `(1024 i + p, 1024 j + q)` (`out_value`).
-/

noncomputable section

open scoped BigOperators
open Idealize.ShloMosaic Idealize.ShloMosaic.TcCoe Idealize.SL.Sem Idealize.ShloMosaic.ValueIdx

namespace Cert.KernelIdeal.Accumulate

open Cert.KernelIdeal Cert.KernelIdeal.Gen

section AnyInstance

variable {F : FTy → Type} [FloatOps F]
variable (m : (ℓ : Loc nD τ sig) → Buf (Elt F) ℓ)

/-- A first point of a run (`n % 4 = 0`) leaves the zero block plus its product, whatever was there. -/
theorem scAt_first (c : Dev nD) (n : ℕ) (hb : n < cfg0.N) (h0 : n % 4 = 0) (acc : Vec F S1024x1024 .f32) :
    Value.scAt0_0 m c n hb acc
      = k0_pay2 (iblk m c 2 (⟨n, hb⟩ : Fin cfg0.N)) (iblk m c 1 (⟨n, hb⟩ : Fin cfg0.N)) (iblk m c 0 (⟨n, hb⟩ : Fin cfg0.N)) (k0_pay1 (F := F)) := by
  have h1 : ¬n % 4 = 3 := by omega
  unfold Value.scAt0_0
  rw [dif_pos h0, dif_neg h1]
  exact Pieces.scratch_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))

/-- Any later point of a run leaves what the point before left plus its product. -/
theorem scAt_later (c : Dev nD) (n : ℕ) (hb : n < cfg0.N) (h0 : ¬n % 4 = 0) (acc : Vec F S1024x1024 .f32) :
    Value.scAt0_0 m c n hb acc
      = k0_pay2 (iblk m c 2 (⟨n, hb⟩ : Fin cfg0.N)) (iblk m c 1 (⟨n, hb⟩ : Fin cfg0.N)) (iblk m c 0 (⟨n, hb⟩ : Fin cfg0.N)) acc := by
  unfold Value.scAt0_0
  rw [dif_neg h0]
  by_cases h1 : n % 4 = 3
  · rw [dif_pos h1]
    exact Pieces.scratch_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc
  · rw [dif_neg h1]
    exact Pieces.scratch_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc

/-- At a last point the output block is the accumulator as that point leaves it, plus the bias row. -/
theorem out_last (c : Dev nD) (t : Fin cfg0.N) (h1 : t.val % 4 = 3) :
    (outsAt0 m c t.val t.isLt).1 = k0_pay3 ((outsAt0 m c t.val t.isLt).2) (iblk m c 3 t) := by
  have h0 : ¬t.val % 4 = 0 := by omega
  rw [outsAt0_C m c t h0 h1]
  dsimp only
  rw [Pieces.out_C c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) _,
    Pieces.scratch_C c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) _]

end AnyInstance

/-! ## On the extended reals -/

variable (m : (ℓ : Loc nD τ sig) → Buf (Elt Ideal) ℓ)

/-- Point `n`'s product, as a function of the block index (past the grid, where it is never read, zero). -/
def addend (c : Dev nD) (n : ℕ) : S1024x1024.Idx → EReal := fun y =>
  if h : n < cfg0.N then
    Product.prod (iblk m c 2 (⟨n, h⟩ : Fin cfg0.N)) (iblk m c 1 (⟨n, h⟩ : Fin cfg0.N)) (iblk m c 0 (⟨n, h⟩ : Fin cfg0.N)) y
  else 0

theorem addend_of_lt (c : Dev nD) (n : ℕ) (h : n < cfg0.N) (y : S1024x1024.Idx) :
    addend m c n y
      = Product.prod (iblk m c 2 (⟨n, h⟩ : Fin cfg0.N)) (iblk m c 1 (⟨n, h⟩ : Fin cfg0.N)) (iblk m c 0 (⟨n, h⟩ : Fin cfg0.N)) y := by
  unfold addend
  rw [dif_pos h]

/-- THE ACCUMULATOR after point `t`: zero plus the products of the run's points up to `t`. -/
theorem scratch_after (c : Dev nD) (t : Fin cfg0.N) (y : S1024x1024.Idx) :
    (outsAt0 m c t.val t.isLt).2 y
      = Ideal.ofBits .f32 0x00000000#32 + ∑ s ∈ Finset.range (t.val % 4 + 1), addend m c (4 * (t.val / 4) + s) y := by
  have hN : cfg0.N = 128 := N_0
  have ht := t.isLt
  rw [Value.soutsAt0_0_eq m c t]
  refine Pipeline.accAt_add_apply (ι := S1024x1024.Idx) (β := EReal) _ _ (fun _ => Ideal.ofBits .f32 0x00000000#32)
    (addend m c) (4 * (t.val / 4)) 3 ?_ ?_ (t.val % 4) (by omega) _ y
  · intro h i
    show Value.scAt0_0 m c (4 * (t.val / 4)) h _ i = _
    rw [scAt_first m c (4 * (t.val / 4)) h (by omega)]
    refine (Product.pay2_apply (iblk m c 2 (⟨4 * (t.val / 4), h⟩ : Fin cfg0.N)) (iblk m c 1 (⟨4 * (t.val / 4), h⟩ : Fin cfg0.N))
      (iblk m c 0 (⟨4 * (t.val / 4), h⟩ : Fin cfg0.N)) (k0_pay1 (F := Ideal)) i).trans ?_
    rw [Product.pay1_apply, addend_of_lt m c _ h]
  · intro n h acc i hlt hle
    rw [scAt_later m c n h (by omega) acc]
    refine (Product.pay2_apply (iblk m c 2 (⟨n, h⟩ : Fin cfg0.N)) (iblk m c 1 (⟨n, h⟩ : Fin cfg0.N))
      (iblk m c 0 (⟨n, h⟩ : Fin cfg0.N)) acc i).trans ?_
    rw [addend_of_lt m c _ h]

/-- A point of `t`'s run, `4·(t / 4) + s`, adds at `(p, q)` column block `s`'s part of the contraction at row
    `1024·(t / 16) + p` and output column `1024·(t / 4 % 4) + q`. -/
theorem addend_eq (c : Dev nD) (t : Fin cfg0.N) (s : Fin 4) (p q : Fin 1024) (r : Fin 8192) (n : Fin 4096)
    (hr : r.val = 1024 * (t.val / 16) + p.val) (hn : n.val = 1024 * (t.val / 4 % 4) + q.val) :
    addend m c (4 * (t.val / 4) + s.val) (ix2 p q)
      = MaskedLinear.blockTerm (m ((c : Thread nD τ).loc main_arg0)) (m ((c : Thread nD τ).loc main_arg1))
          (m ((c : Thread nD τ).loc main_arg3)) r n s := by
  have hN : cfg0.N = 128 := N_0
  have ht := t.isLt
  have hs := s.isLt
  have h : 4 * (t.val / 4) + s.val < cfg0.N := by omega
  rw [addend_of_lt m c _ h]
  refine (Product.prod_apply (iblk m c 2 (⟨4 * (t.val / 4) + s.val, h⟩ : Fin cfg0.N)) (iblk m c 1 (⟨4 * (t.val / 4) + s.val, h⟩ : Fin cfg0.N))
    (iblk m c 0 (⟨4 * (t.val / 4) + s.val, h⟩ : Fin cfg0.N)) p q).trans ?_
  unfold MaskedLinear.blockTerm MaskedLinear.term MaskedLinear.maskedW
  refine Finset.sum_congr rfl fun kk _ => ?_
  have hkk := kk.isLt
  rw [Blocks.iblk0_apply m c (⟨4 * (t.val / 4) + s.val, h⟩ : Fin cfg0.N) p kk r (MaskedLinear.col s kk)
        (by show r.val = 1024 * ((4 * (t.val / 4) + s.val) / 16) + p.val; omega)
        (by show 1024 * s.val + kk.val = 1024 * ((4 * (t.val / 4) + s.val) % 4) + kk.val; omega),
    Blocks.iblk1_apply m c (⟨4 * (t.val / 4) + s.val, h⟩ : Fin cfg0.N) q kk n (MaskedLinear.col s kk)
        (by show n.val = 1024 * ((4 * (t.val / 4) + s.val) / 4 % 4) + q.val; omega)
        (by show 1024 * s.val + kk.val = 1024 * ((4 * (t.val / 4) + s.val) % 4) + kk.val; omega),
    Blocks.iblk2_apply m c (⟨4 * (t.val / 4) + s.val, h⟩ : Fin cfg0.N) q kk n (MaskedLinear.col s kk)
        (by show n.val = 1024 * ((4 * (t.val / 4) + s.val) / 4 % 4) + q.val; omega)
        (by show 1024 * s.val + kk.val = 1024 * ((4 * (t.val / 4) + s.val) % 4) + kk.val; omega),
    Product.bit_test]

/-- THE BLOCK A LAST POINT WRITES, at `(p, q)`: the specification at row `1024·(t / 16) + p`, column
    `1024·(t / 4 % 4) + q`. -/
theorem out_value (c : Dev nD) (t : Fin cfg0.N) (h1 : t.val % 4 = 3) (p q : Fin 1024) (r : Fin 8192) (n : Fin 4096)
    (hr : r.val = 1024 * (t.val / 16) + p.val) (hn : n.val = 1024 * (t.val / 4 % 4) + q.val) :
    (outsAt0 m c t.val t.isLt).1 (ix2 p q)
      = MaskedLinear.G (m ((c : Thread nD τ).loc main_arg0)) (m ((c : Thread nD τ).loc main_arg1))
          (m ((c : Thread nD τ).loc main_arg2)) (m ((c : Thread nD τ).loc main_arg3)) (ix2 r n) := by
  rw [out_last m c t h1]
  refine (Product.pay3_apply ((outsAt0 m c t.val t.isLt).2) (iblk m c 3 t) p q).trans ?_
  rw [scratch_after m c t (ix2 p q), h1, MaskedLinear.G_blocks, Blocks.iblk3_apply m c t q n hn, Finset.sum_range]
  show (_ + ∑ s : Fin 4, addend m c (4 * (t.val / 4) + s.val) (ix2 p q)) + _ = (_ + ∑ s : Fin 4, MaskedLinear.blockTerm _ _ _ r n s) + _
  rw [Finset.sum_congr rfl fun s _ => addend_eq m c t s p q r n hr hn]

end Cert.KernelIdeal.Accumulate

end
-- ==== Proof.Result.lean ====
import proofs.«157692_j68994354643218_1_alg».proof.Proof.Gen.KernelIdeal.Value
import proofs.«157692_j68994354643218_1_alg».proof.Proof.Accumulate

/-!
# From blocks to the array

The output window's block at point `t = (i, j, k)` is block `(i, j)` of the result, and it is written back at the
last point of each run only (`k = 3`). What such a point writes back is, entry by entry, the specification read
through that block (`flushed_eq`, from the accumulator's closed form). Every index `(r, n)` of the result lies
in the block of the point `(r / 1024, n / 1024, 3)`, which writes back (`cover`). So after the run the result
array holds the specification everywhere (`final`), whatever order the blocks were written in.
-/

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

/-- What the result array ends holding: the masked linear layer of the argument arrays. -/
abbrev result (c : Dev nD) : Buf (Elt Ideal) ((c : Thread nD τ).loc main_v2) :=
  MaskedLinear.G (m ((c : Thread nD τ).loc main_arg0)) (m ((c : Thread nD τ).loc main_arg1)) (m ((c : Thread nD τ).loc main_arg2)) (m ((c : Thread nD τ).loc main_arg3))

/-- WHAT A WRITING POINT WRITES BACK is its block of the specification. -/
theorem flushed_eq (c : Dev nD) (t : Fin cfg0.N) (hf : (cfg0.win 4).flush t = true) :
    (dats m 0 c).flushed 4 t = ((cfg0.win 4).blk t).view.read (Elt Ideal) (result m c) := by
  have h1 : t.val % 4 = 3 := (flush0_4 t).mp hf
  obtain ⟨-, -, -, -, -, -, -, -, e0, e1⟩ := Blocks.idx_facts t
  have hN : cfg0.N = 128 := N_0
  have ht := t.isLt
  rw [Value.flushed4]
  funext y
  obtain ⟨p, q, rfl⟩ : ∃ (p q : Fin 1024), y = ix2 p q := ⟨y 0, y 1, eq_ix2 y⟩
  have hp := p.isLt
  have hq := q.isLt
  rw [View.read_apply]
  have e : ((cfg0.win 4).blk t).view.emb (ix2 p q)
      = ix2 (⟨1024 * (t.val / 16) + p.val, by omega⟩ : Fin 8192) (⟨1024 * (t.val / 4 % 4) + q.val, by omega⟩ : Fin 4096) :=
    funext fun a => Fin.ext (by
      match a with
      | ⟨0, _⟩ => show win0_4.index t (0 : Fin 2) * 1024 + 1 * p.val = 1024 * (t.val / 16) + p.val; rw [e0]; omega
      | ⟨1, _⟩ => show win0_4.index t (1 : Fin 2) * 1024 + 1 * q.val = 1024 * (t.val / 4 % 4) + q.val; rw [e1]; omega)
  show (outsAt0 m c t.val t.isLt).1 (ix2 p q) = result m c (((cfg0.win 4).blk t).view.emb (ix2 p q))
  rw [e]
  exact Accumulate.out_value m c t h1 p q _ _ rfl rfl

/-- An index of the result is in point `t`'s block iff each coordinate is in the block's range on its axis. -/
theorem mem_blk (t : Fin cfg0.N) (i : S8192x4096.Idx) :
    i ∈ ((cfg0.win 4).blk t).view.set
      ↔ ∀ a : Fin 2, win0_4.index t a * S1024x1024.size a ≤ (i a).val ∧ (i a).val < win0_4.index t a * S1024x1024.size a + S1024x1024.size a := by
  show i ∈ ((View.whole main_v2).slice (win0_4.rect t)).set ↔ _
  rw [View.set_slice_whole, Rect.mem_set_unit]
  exact Iff.rfl

/-- Every index of the result is in the block of a point that writes back: the last point of its block's run. -/
theorem cover (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 128 := N_0
  obtain ⟨t, ht⟩ : ∃ t : Fin cfg0.N, t.val = 16 * ((i 0).val / 1024) + 4 * ((i 1).val / 1024) + 3 :=
    ⟨⟨16 * ((i 0).val / 1024) + 4 * ((i 1).val / 1024) + 3, by omega⟩, rfl⟩
  obtain ⟨-, -, -, -, -, -, -, -, e0, e1⟩ := Blocks.idx_facts t
  refine ⟨t, (flush0_4 t).mpr (by omega), ?_⟩
  rw [mem_blk]
  intro a
  match a with
  | ⟨0, _⟩ =>
    show win0_4.index t (0 : Fin 2) * 1024 ≤ (i 0).val ∧ (i 0).val < win0_4.index t (0 : Fin 2) * 1024 + 1024
    rw [e0]; omega
  | ⟨1, _⟩ =>
    show win0_4.index t (1 : Fin 2) * 1024 ≤ (i 1).val ∧ (i 1).val < win0_4.index t (1 : Fin 2) * 1024 + 1024
    rw [e1]; omega

/-- THE RESULT ARRAY after the run is the specification of the argument arrays. -/
theorem final (c : Dev nD) : (dats m 0 c).arrAt 4 cfg0.N = result m c :=
  (dats m 0 c).arrAt_eq_of_cover 4 (result m c) (flushed_eq m c) cover

/-- The kernel's run, read: the result at the specification, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.Reference.lean ====
import proofs.«157692_j68994354643218_1_alg».proof.Proof.Gen.ReferenceIdeal.Read
import proofs.«157692_j68994354643218_1_alg».proof.Proof.Spec

/-!
# The reference computes the specification

The reference selects the weight under the mask against a broadcast zero, transposes it, contracts `x`'s columns
with the transposed matrix's rows in one `dot_general`, and adds the bias broadcast along rows. Read at `(r, n)`,
operation by operation: the contraction is `∑ k, x[r, k] · wmᵀ[k, n]`, the transpose reads `wm[n, k]`, the select
reads the mask bit, the weight and the zero at `(n, k)`, and the two broadcasts read the bias at `n`. That is the
specification, term for term.
-/

noncomputable section

open scoped BigOperators
open Idealize.ShloMosaic Idealize.ShloMosaic.ValueIdx

namespace Cert.ReferenceIdeal.RefValue

open Cert.ReferenceIdeal Cert.ReferenceIdeal.Read

/-- THE REFERENCE'S RESULT is the specification of its arguments. -/
theorem ref_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .i1⟩ : BufTy).Contents (Elt Ideal)) :
    val_main_v5 (F := Ideal) x0 x1 x2 x3 = MaskedLinear.G x0 x1 x2 x3 := by
  funext i
  rw [val_main_v5_apply, val_main_v2_apply, val_main_v4_apply, val_main_v3_apply]
  show (∑ k, x0 (lidx_main_v2 i k) * val_main_v1 x1 x3 (ridx_main_v2 i k)) + x2 (idx_main_v3 (idx_main_v4 i)) = _
  unfold MaskedLinear.G MaskedLinear.term MaskedLinear.maskedW
  have eb : idx_main_v3 (idx_main_v4 i) = ix1 (i 1) := funext fun a => Fin.ext (by
    match a with
    | ⟨0, _⟩ => rfl)
  rw [eb]
  refine congrArg (fun z => z + x2 (ix1 (i 1))) (Finset.sum_congr rfl fun k _ => ?_)
  have el : lidx_main_v2 i k = ix2 (i 0) k := funext fun a => Fin.ext (by
    match a with
    | ⟨0, _⟩ => rfl
    | ⟨1, _⟩ => rfl)
  have er : idx_main_v1 (ridx_main_v2 i k) = ix2 (i 1) k := funext fun a => Fin.ext (by
    match a with
    | ⟨0, _⟩ => rfl
    | ⟨1, _⟩ => rfl)
  rw [val_main_v1_apply, val_main_v0_apply, val_main_call0_v0_apply, val_main_cst_apply, el, er]
  rfl

end Cert.ReferenceIdeal.RefValue

end
-- ==== Proof.lean ====
/-
  A linear layer whose weight is masked — `out = x · (mask ? w : 0)ᵀ + b` for `x : [8192, 4096]`,
  `w, mask : [4096, 4096]`, `b : [4096]` — computed by a kernel on an `8 × 4 × 4` grid of 1024-blocks
  (row block `i`, output-column block `j`, contracted-column block `k`) against the jnp reference
  `x @ where(mask, w, 0).T + b`.

  At a grid point the kernel multiplies the `x` block `(i, k)` with the masked `w` block `(j, k)` on the matrix
  unit (operands narrowed to bf16, accumulated in f32) and adds the product into an accumulator that is zeroed at
  `k = 0`; at `k = 3` it writes the accumulator plus the bias block `j` to the result's block `(i, j)`. On the
  extended reals the narrowing is the identity and both the matrix unit's product and the host's `dot_general` are
  plain finite sums, so at `(r, n)` the kernel's result is

    `(((0 + S₀) + S₁) + S₂) + S₃ + b[n]`,   `S_s = ∑ kk < 1024, x[r, 1024 s + kk] · (mask[n, 1024 s + kk] ? w[n, 1024 s + kk] : 0)`,

  and the reference's is `∑ k < 4096, x[r, k] · (mask[n, k] ? w[n, k] : 0) + b[n]`. They are equal because a sum
  over 4096 columns is the sum over the four blocks of the sums inside each block and zero is the additive unit:
  a re-indexing of a finite sum in a commutative monoid, true of every extended real, so the inputs' finiteness is
  never used. The mask reaches the kernel as 32-bit words that the body tests against zero, which gives the bit
  back.

  The modules: Proof/Spec.lean (the result as one function `G` of the arguments, and the block law),
  Proof/Pieces.lean (what a first, a middle and a last point of a run leave in the accumulator and the output
  block), Proof/Product.lean (a point's product and epilogue read at an index), Proof/Blocks.lean (which entries of
  the arguments each window holds at a point), Proof/Accumulate.lean (the accumulator after any point as zero plus
  the run's products; a last point's block is `G`), Proof/Result.lean (the written blocks cover the result, which
  therefore ends at `G`), Proof/Reference.lean (the reference's operations, read at an index, are `G`). No
  operation of the kernel is replaced by another for its reading on the extended reals — that reading is the
  kernel's own text — so `preserves` has nothing to state.
-/
import proofs.«157692_j68994354643218_1_alg».proof.Defs
import proofs.«157692_j68994354643218_1_alg».proof.Proof.Gen.Kernel
import proofs.«157692_j68994354643218_1_alg».proof.Proof.Gen.Kernel.Frame
import proofs.«157692_j68994354643218_1_alg».proof.Proof.Gen.KernelIdeal
import proofs.«157692_j68994354643218_1_alg».proof.Proof.Gen.KernelIdeal.Frame
import proofs.«157692_j68994354643218_1_alg».proof.Proof.Gen.KernelIdeal.Value
import proofs.«157692_j68994354643218_1_alg».proof.Proof.Gen.ReferenceIdeal
import proofs.«157692_j68994354643218_1_alg».proof.Proof.Gen.ReferenceIdeal.Run
import proofs.«157692_j68994354643218_1_alg».proof.Proof.Gen.ReferenceIdeal.Read
import proofs.«157692_j68994354643218_1_alg».proof.Proof.Gen.Pre_finite_inputs
import proofs.«157692_j68994354643218_1_alg».proof.Proof.Result
import proofs.«157692_j68994354643218_1_alg».proof.Proof.Reference
import Idealize.ShloMosaic.Adequacy
import Idealize.ShloMosaic.Init

noncomputable section

namespace Cert.Proof

open Idealize.ShloMosaic Idealize.SL.Sem

/-- The kernel as printed runs to the end without a fault and leaves its arguments as they were. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is a straight line of host operations: it runs, and none of them writes an argument. -/
theorem frame_ri : Cert.frame_ReferenceIdeal := fun m ρ _ =>
  (θ_run Cert.ReferenceIdeal.defs _ _).mono (fun _ h c => (h c).2) (Cert.ReferenceIdeal.Value.run (F := Ideal) m ρ)

/-- The kernel's reading on the extended reals is its own text, operation for operation: nothing to state. -/
theorem preserves : Cert.preserves_Kernel_KernelIdeal := trivial

/-- On the extended reals, from memories that agree on the four arguments, the kernel's result array and the
    reference's both end at the masked linear layer `G` of those arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
